-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x100 : Shape := ⟨2, ![131072, 100]⟩
abbrev S131072x256 : Shape := ⟨2, ![131072, 256]⟩
abbrev S100x1024 : Shape := ⟨2, ![100, 1024]⟩
abbrev S256x1024 : Shape := ⟨2, ![256, 1024]⟩
abbrev S1024 : Shape := ⟨1, ![1024]⟩
abbrev S_ : Shape := ⟨0, ![]⟩

class Facts : Prop where
  bcast_S_S131072x100 : S_.BroadcastsInDim S131072x100 (![] : Fin 0 → Fin S131072x100.rank)
  reducesTo_S131072x100_S_d0_1 : S131072x100.ReducesTo [0, 1] S_
  h_S_ : 0 < S_.numel
  bcast_S_S131072x256 : S_.BroadcastsInDim S131072x256 (![] : Fin 0 → Fin S131072x256.rank)
  reducesTo_S131072x256_S_d0_1 : S131072x256.ReducesTo [0, 1] S_
  bcast_S_S100x1024 : S_.BroadcastsInDim S100x1024 (![] : Fin 0 → Fin S100x1024.rank)
  reducesTo_S100x1024_S_d0_1 : S100x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S256x1024 .f32) (main_arg5 : FVec F S1024 .f32) (main_arg6 : FVec F S1024 .f32) (main_v13 : IVec S_ 1) (main_v16 : IVec S100x1024 1) : IVec S_ 1 :=
  let main_c_5 : IVec S_ 1 := constantI S_ 1 1#1
  let main_v17 : IVec S_ 1 := (fun x v => Host.reduce IntOp.andi x v reducesTo_S100x1024_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S131072x100 .f32) (main_arg1 : FVec F S131072x256 .f32) (main_arg2 : FVec F S131072x256 .f32) (main_arg3 : FVec F S100x1024 .f32) (main_arg4 : FVec F S256x1024 .f32) (main_arg5 : FVec F S1024 .f32) (main_arg6 : FVec F S1024 .f32) : IVec S_ 1 :=
  let main_v0 : FVec F S131072x100 .f32 := Host.absf main_arg0
  let main_cst : FVec F S_ .f32 := constant S_ .f32 0x7F800000#32
  let main_v1 : FVec F S131072x100 .f32 := broadcastInDim S131072x100 ![] bcast_S_S131072x100 main_cst
  let main_v2 : IVec S131072x100 1 := cmpf .olt main_v0 main_v1
  let main_c : IVec S_ 1 := constantI S_ 1 1#1
  let main_v3 : IVec S_ 1 := (fun x v => Host.reduce IntOp.andi x v reducesTo_S131072x100_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S131072x256 .f32 := Host.absf main_arg2
  let main_cst_2 : FVec F S_ .f32 := constant S_ .f32 0x7F800000#32
  let main_v10 : FVec F S131072x256 .f32 := broadcastInDim S131072x256 ![] bcast_S_S131072x256 main_cst_2
  let main_v11 : IVec S131072x256 1 := cmpf .olt main_v9 main_v10
  let main_c_3 : IVec S_ 1 := constantI S_ 1 1#1
  let main_v12 : IVec S_ 1 := (fun x v => Host.reduce IntOp.andi x v reducesTo_S131072x256_S_d0_1 h_S_) main_v11 main_c_3
  let main_v13 : IVec S_ 1 := andi main_v8 main_v12
  let main_v14 : FVec F S100x1024 .f32 := Host.absf main_arg3
  let main_cst_4 : FVec F S_ .f32 := constant S_ .f32 0x7F800000#32
  let main_v15 : FVec F S100x1024 .f32 := broadcastInDim S100x1024 ![] bcast_S_S100x1024 main_cst_4
  let main_v16 : IVec S100x1024 1 := cmpf .olt main_v14 main_v15
  fn_part1 (F := F) main_arg4 main_arg5 main_arg6 main_v13 main_v16
-- ==== Kernel.lean ====
abbrev S131072x100 : Shape := ⟨2, ![131072, 100]⟩
abbrev S131072x256 : Shape := ⟨2, ![131072, 256]⟩
abbrev S100x1024 : Shape := ⟨2, ![100, 1024]⟩
abbrev S256x1024 : Shape := ⟨2, ![256, 1024]⟩
abbrev S1024 : Shape := ⟨1, ![1024]⟩
abbrev S1x1024 : Shape := ⟨2, ![1, 1024]⟩
abbrev S2048x100 : Shape := ⟨2, ![2048, 100]⟩
abbrev S2048x256 : Shape := ⟨2, ![2048, 256]⟩
abbrev S100x256 : Shape := ⟨2, ![100, 256]⟩
abbrev S256x256 : Shape := ⟨2, ![256, 256]⟩
abbrev S1x256 : Shape := ⟨2, ![1, 256]⟩

abbrev nBuf : Space → Nat
  | .hbm => 11
  | .vmem => 13
  | .smem => 0
  | _ => 0

abbrev bufTy : (tb : Table) → Fin (tcTables nBuf tb) → BufTy
  | .hbm, ⟨0, _⟩ => ⟨S131072x100, .f32⟩
  | .hbm, ⟨1, _⟩ => ⟨S131072x256, .f32⟩
  | .hbm, ⟨2, _⟩ => ⟨S131072x256, .f32⟩
  | .hbm, ⟨3, _⟩ => ⟨S100x1024, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S131072x256, .f32⟩
  | .hbm, ⟨10, _⟩ => ⟨S131072x256, .f32⟩
  | .local _ .vmem, ⟨0, _⟩ => ⟨S2048x100, .f32⟩
  | .local _ .vmem, ⟨1, _⟩ => ⟨S2048x100, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S100x1024, .f32⟩
  | .local _ .vmem, ⟨7, _⟩ => ⟨S256x1024, .f32⟩
  | .local _ .vmem, ⟨8, _⟩ => ⟨S1x1024, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | _, _ => ⟨S131072x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S100x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1024_S1x1024 : S1024.ShapeCasts S1x1024
  inb_S2048x100_S2048x100_0_0 : ∀ a, (![0, 0] : Fin 2 → Nat) a + S2048x100.size a ≤ S2048x100.size a
  h_S2048x100 : 0 < S2048x100.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S100x1024_S100x256_0_0 : ∀ a, (![0, 0] : Fin 2 → Nat) a + S100x256.size a ≤ S100x1024.size a
  h_S100x256 : 0 < S100x256.numel
  inb_S256x1024_S256x256_0_0 : ∀ a, (![0, 0] : Fin 2 → Nat) a + S256x256.size a ≤ S256x1024.size a
  h_S256x256 : 0 < S256x256.numel
  inb_S1x1024_S1x256_0_0 : ∀ a, (![0, 0] : Fin 2 → Nat) a + S1x256.size a ≤ S1x1024.size a
  h_S1x256 : 0 < S1x256.numel
  shapeCasts_S1x256_S1x256 : S1x256.ShapeCasts S1x256
  broadcasts_S1x256_S2048x256 : S1x256.Broadcasts S2048x256
  inb_S100x1024_S100x256_0_512 : ∀ a, (![0, 512] : Fin 2 → Nat) a + S100x256.size a ≤ S100x1024.size a
  inb_S256x1024_S256x256_0_512 : ∀ a, (![0, 512] : Fin 2 → Nat) a + S256x256.size a ≤ S256x1024.size a
  inb_S1x1024_S1x256_0_512 : ∀ a, (![0, 512] : Fin 2 → Nat) a + S1x256.size a ≤ S1x1024.size a
  inb_S100x1024_S100x256_0_256 : ∀ a, (![0, 256] : Fin 2 → Nat) a + S100x256.size a ≤ S100x1024.size a
  inb_S256x1024_S256x256_0_256 : ∀ a, (![0, 256] : Fin 2 → Nat) a + S256x256.size a ≤ S256x1024.size a
  inb_S1x1024_S1x256_0_256 : ∀ a, (![0, 256] : Fin 2 → Nat) a + S1x256.size a ≤ S1x1024.size a
  inb_S100x1024_S100x256_0_768 : ∀ a, (![0, 768] : Fin 2 → Nat) a + S100x256.size a ≤ S100x1024.size a
  inb_S256x1024_S256x256_0_768 : ∀ a, (![0, 768] : Fin 2 → Nat) a + S256x256.size a ≤ S256x1024.size a
  inb_S1x1024_S1x256_0_768 : ∀ a, (![0, 768] : Fin 2 → Nat) a + S1x256.size a ≤ S1x1024.size a
  dot_S2048x100_S100x256_S2048x256_1_0_0_1_n_n_wf : DotDims.WF S2048x100 S100x256 S2048x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x100.size a ≤ S131072x100.size a
  hwx0_0 : ∀ i : grid0.Coords, EltTy.bits .f32 = 32 ∨ (Rect.block (s := S131072x100) S2048x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S131072x256.size a
  hwx0_1 : ∀ i : grid0.Coords, EltTy.bits .f32 = 32 ∨ (Rect.block (s := S131072x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S131072x256.size a
  hwx0_2 : ∀ i : grid0.Coords, EltTy.bits .f32 = 32 ∨ (Rect.block (s := S131072x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x1024.size a ≤ S100x1024.size a
  hwx0_3 : ∀ i : grid0.Coords, EltTy.bits .f32 = 32 ∨ (Rect.block (s := S100x1024) S100x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .f32 = 32 ∨ (Rect.block (s := S256x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S131072x256.size a
  hwx0_6 : ∀ i : grid0.Coords, EltTy.bits .f32 = 32 ∨ (Rect.block (s := S131072x256) S2048x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S131072x256.size a
  hwx0_7 : ∀ i : grid0.Coords, EltTy.bits .f32 = 32 ∨ (Rect.block (s := S131072x256) S2048x256.size (cc0_transform_7 i) (hinb0_7 i)).WholeWords (EltTy.packing .f32)

variable [Facts₀]

def dot_S2048x100_S100x256_S2048x256_1_0_0_1_n_n : DotDims S2048x100 S100x256 S2048x256 where
  lhsContracting := [1]
  rhsContracting := [0]
  lhsNonContracting := [0]
  rhsNonContracting := [1]
  lhsBatch := []
  rhsBatch := []
  wf := dot_S2048x100_S100x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S100x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S2048x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x100 : Shape := ⟨2, ![131072, 100]⟩
abbrev S131072x256 : Shape := ⟨2, ![131072, 256]⟩
abbrev S100x1024 : Shape := ⟨2, ![100, 1024]⟩
abbrev S256x1024 : Shape := ⟨2, ![256, 1024]⟩
abbrev S1024 : Shape := ⟨1, ![1024]⟩
abbrev S131072x1024 : Shape := ⟨2, ![131072, 1024]⟩
abbrev S1x1024 : Shape := ⟨2, ![1, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S131072x100, .f32⟩
  | .hbm, ⟨1, _⟩ => ⟨S131072x256, .f32⟩
  | .hbm, ⟨2, _⟩ => ⟨S131072x256, .f32⟩
  | .hbm, ⟨3, _⟩ => ⟨S100x1024, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S131072x1024, .f32⟩
  | .hbm, ⟨8, _⟩ => ⟨S1x1024, .f32⟩
  | .hbm, ⟨9, _⟩ => ⟨S131072x1024, .f32⟩
  | .hbm, ⟨10, _⟩ => ⟨S131072x1024, .f32⟩
  | .hbm, ⟨11, _⟩ => ⟨S131072x1024, .f32⟩
  | .hbm, ⟨12, _⟩ => ⟨S1x1024, .f32⟩
  | .hbm, ⟨13, _⟩ => ⟨S131072x1024, .f32⟩
  | .hbm, ⟨14, _⟩ => ⟨S131072x1024, .f32⟩
  | .hbm, ⟨15, _⟩ => ⟨S131072x1024, .f32⟩
  | .hbm, ⟨16, _⟩ => ⟨S131072x256, .f32⟩
  | .hbm, ⟨17, _⟩ => ⟨S131072x256, .f32⟩
  | .hbm, ⟨18, _⟩ => ⟨S131072x256, .f32⟩
  | .hbm, ⟨19, _⟩ => ⟨S131072x256, .f32⟩
  | .hbm, ⟨20, _⟩ => ⟨S131072x256, .f32⟩
  | .hbm, ⟨21, _⟩ => ⟨S131072x256, .f32⟩
  | .hbm, ⟨22, _⟩ => ⟨S_, .f32⟩
  | .hbm, ⟨23, _⟩ => ⟨S131072x256, .f32⟩
  | .hbm, ⟨24, _⟩ => ⟨S131072x256, .f32⟩
  | .hbm, ⟨25, _⟩ => ⟨S_, .f32⟩
  | .hbm, ⟨26, _⟩ => ⟨S131072x256, .f32⟩
  | .hbm, ⟨27, _⟩ => ⟨S131072x256, .f32⟩
  | .hbm, ⟨28, _⟩ => ⟨S131072x256, .f32⟩
  | .hbm, ⟨29, _⟩ => ⟨S131072x256, .f32⟩
  | .hbm, ⟨30, _⟩ => ⟨S_, .f32⟩
  | .hbm, ⟨31, _⟩ => ⟨S131072x256, .f32⟩
  | .hbm, ⟨32, _⟩ => ⟨S131072x256, .f32⟩
  | .hbm, ⟨33, _⟩ => ⟨S_, .f32⟩
  | .hbm, ⟨34, _⟩ => ⟨S131072x256, .f32⟩
  | .hbm, ⟨35, _⟩ => ⟨S131072x256, .f32⟩
  | .hbm, ⟨36, _⟩ => ⟨S131072x256, .f32⟩
  | .hbm, ⟨37, _⟩ => ⟨S131072x256, .f32⟩
  | .hbm, ⟨38, _⟩ => ⟨S131072x256, .f32⟩
  | .hbm, ⟨39, _⟩ => ⟨S_, .f32⟩
  | .hbm, ⟨40, _⟩ => ⟨S131072x256, .f32⟩
  | .hbm, ⟨41, _⟩ => ⟨S131072x256, .f32⟩
  | .hbm, ⟨42, _⟩ => ⟨S_, .f32⟩
  | .hbm, ⟨43, _⟩ => ⟨S131072x256, .f32⟩
  | .hbm, ⟨44, _⟩ => ⟨S131072x256, .f32⟩
  | .hbm, ⟨45, _⟩ => ⟨S131072x256, .f32⟩
  | .hbm, ⟨46, _⟩ => ⟨S131072x256, .f32⟩
  | .hbm, ⟨47, _⟩ => ⟨S131072x256, .f32⟩
  | .hbm, ⟨48, _⟩ => ⟨S131072x256, .f32⟩
  | .hbm, ⟨49, _⟩ => ⟨S131072x256, .f32⟩
  | _, _ => ⟨S131072x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  slices_S131072x1024_S131072x256_0_0 : S131072x1024.Slices ![0, 0] S131072x256
  slices_S131072x1024_S131072x256_0_256 : S131072x1024.Slices ![0, 256] S131072x256
  slices_S131072x1024_S131072x256_0_512 : S131072x1024.Slices ![0, 512] S131072x256
  slices_S131072x1024_S131072x256_0_768 : S131072x1024.Slices ![0, 768] S131072x256
  bcast_S_S131072x256 : S_.BroadcastsInDim S131072x256 (![] : Fin 0 → Fin S131072x256.rank)
  dot_S131072x100_S100x1024_S131072x1024_1_0_0_1_n_n_wf : DotDims.WF S131072x100 S100x1024 S131072x1024 [1] [0] [0] [1] [] []
  dot_S131072x256_S256x1024_S131072x1024_1_0_0_1_n_n_wf : DotDims.WF S131072x256 S256x1024 S131072x1024 [1] [0] [0] [1] [] []

variable [Facts₀]

def dot_S131072x100_S100x1024_S131072x1024_1_0_0_1_n_n : DotDims S131072x100 S100x1024 S131072x1024 where
  lhsContracting := [1]
  rhsContracting := [0]
  lhsNonContracting := [0]
  rhsNonContracting := [1]
  lhsBatch := []
  rhsBatch := []
  wf := dot_S131072x100_S100x1024_S131072x1024_1_0_0_1_n_n_wf
def dot_S131072x256_S256x1024_S131072x1024_1_0_0_1_n_n : DotDims S131072x256 S256x1024 S131072x1024 where
  lhsContracting := [1]
  rhsContracting := [0]
  lhsNonContracting := [0]
  rhsNonContracting := [1]
  lhsBatch := []
  rhsBatch := []
  wf := dot_S131072x256_S256x1024_S131072x1024_1_0_0_1_n_n_wf

class Facts : Prop extends Facts₀ where

variable [Facts]
-- ==== Proof.Cell.lean ====
/-
  One step of an LSTM cell, entry by entry on the extended reals; nothing here depends on a program.

  The four gates share one stacked axis of 1024 columns: gate `i` is columns 0–255, `f` 256–511, `g` 512–767 and
  `o` 768–1023. The pre-activation of stacked column `n` on batch row `r` is
      (∑ₖ x(r,k)·Wx(k,n) + ∑ₖ h(r,k)·Wh(k,n)) + (bx(n) + bh(n)),
  the new cell state is σ(f)·C + σ(i)·tanh(g) and the new hidden state σ(o)·tanh(new cell state), with σ the logistic
  function 1 / (1 + e^(−z)) and tanh continued to ±∞ by its limits. The only law used between two spellings of the
  pre-activation is that a sum of four extended reals may be regrouped: addition on the extended reals is commutative and
  associative at the infinities too, so no finiteness of the entries is needed.
-/
import Idealize.ShloMosaic.PureOps.Ideal
import Idealize.ShloMosaic.Lib.ValueIdx

noncomputable section

namespace Cert.Lstm

open Idealize.ShloMosaic Idealize.ShloMosaic.ValueIdx

/-- Column `j` of the gate whose 256 columns start at stacked column `o`. -/
def gcol (o : Nat) (ho : o + 256 ≤ 1024) (j : Fin 256) : Fin 1024 := ⟨o + j.val, by have := j.isLt; omega⟩

theorem gcol_val (o : Nat) (ho : o + 256 ≤ 1024) (j : Fin 256) : (gcol o ho j).val = o + j.val := rfl

/-- A gate's pre-activation from a row of `x`, a row of `h`, a column of each weight matrix and the bias entry. -/
def pre (xr : Fin 100 → EReal) (hr : Fin 256 → EReal) (wx : Fin 100 → EReal) (wh : Fin 256 → EReal) (b : EReal) : EReal :=
  (∑ k : Fin 100, xr k * wx k + ∑ k : Fin 256, hr k * wh k) + b

/-- The same number with each bias added to its own product first: a sum of four terms regrouped. -/
theorem pre_split (xr : Fin 100 → EReal) (hr : Fin 256 → EReal) (wx : Fin 100 → EReal) (wh : Fin 256 → EReal) (b₁ b₂ : EReal) :
    (∑ k : Fin 100, xr k * wx k + b₁) + (∑ k : Fin 256, hr k * wh k + b₂) = pre xr hr wx wh (b₁ + b₂) :=
  add_add_add_comm _ _ _ _

/-- Rows, columns and bias that agree entry by entry give the same pre-activation. -/
theorem pre_congr {xr xr' : Fin 100 → EReal} {hr hr' : Fin 256 → EReal} {wx wx' : Fin 100 → EReal} {wh wh' : Fin 256 → EReal}
    {b b' : EReal} (h1 : ∀ k, xr k = xr' k) (h2 : ∀ k, hr k = hr' k) (h3 : ∀ k, wx k = wx' k) (h4 : ∀ k, wh k = wh' k)
    (h5 : b = b') : pre xr hr wx wh b = pre xr' hr' wx' wh' b' := by
  rw [funext h1, funext h2, funext h3, funext h4, h5]

/-- The new cell state from the input, forget and candidate pre-activations and the old cell state. -/
def cellC (i f g c : EReal) : EReal := Ideal.logistic f * c + Ideal.logistic i * Ideal.tanh g

/-- The new hidden state from the output pre-activation and the new cell state. -/
def cellH (o cn : EReal) : EReal := Ideal.logistic o * Ideal.tanh cn

/-! ## The whole arrays -/

/-- The pre-activation of stacked column `n` on batch row `r`. -/
def gate (x : FVec Ideal ⟨2, ![131072, 100]⟩ .f32) (h : FVec Ideal ⟨2, ![131072, 256]⟩ .f32)
    (Wx : FVec Ideal ⟨2, ![100, 1024]⟩ .f32) (Wh : FVec Ideal ⟨2, ![256, 1024]⟩ .f32) (bx bh : FVec Ideal ⟨1, ![1024]⟩ .f32)
    (n : Fin 1024) (r : Fin 131072) : EReal :=
  pre (fun k => x (ix2 r k)) (fun k => h (ix2 r k)) (fun k => Wx (ix2 k n)) (fun k => Wh (ix2 k n)) (bx (ix1 n) + bh (ix1 n))

/-- The new cell state at row `r`, column `j`. -/
def cAt (x : FVec Ideal ⟨2, ![131072, 100]⟩ .f32) (C h : FVec Ideal ⟨2, ![131072, 256]⟩ .f32)
    (Wx : FVec Ideal ⟨2, ![100, 1024]⟩ .f32) (Wh : FVec Ideal ⟨2, ![256, 1024]⟩ .f32) (bx bh : FVec Ideal ⟨1, ![1024]⟩ .f32)
    (r : Fin 131072) (j : Fin 256) : EReal :=
  cellC (gate x h Wx Wh bx bh (gcol 0 (by omega) j) r) (gate x h Wx Wh bx bh (gcol 256 (by omega) j) r)
    (gate x h Wx Wh bx bh (gcol 512 (by omega) j) r) (C (ix2 r j))

/-- The new hidden state at row `r`, column `j`. -/
def hAt (x : FVec Ideal ⟨2, ![131072, 100]⟩ .f32) (C h : FVec Ideal ⟨2, ![131072, 256]⟩ .f32)
    (Wx : FVec Ideal ⟨2, ![100, 1024]⟩ .f32) (Wh : FVec Ideal ⟨2, ![256, 1024]⟩ .f32) (bx bh : FVec Ideal ⟨1, ![1024]⟩ .f32)
    (r : Fin 131072) (j : Fin 256) : EReal :=
  cellH (gate x h Wx Wh bx bh (gcol 768 (by omega) j) r) (cAt x C h Wx Wh bx bh r j)

/-- The new cell state as one array. -/
def cOut (x : FVec Ideal ⟨2, ![131072, 100]⟩ .f32) (C h : FVec Ideal ⟨2, ![131072, 256]⟩ .f32)
    (Wx : FVec Ideal ⟨2, ![100, 1024]⟩ .f32) (Wh : FVec Ideal ⟨2, ![256, 1024]⟩ .f32) (bx bh : FVec Ideal ⟨1, ![1024]⟩ .f32) :
    FVec Ideal ⟨2, ![131072, 256]⟩ .f32 := fun i => cAt x C h Wx Wh bx bh (i 0) (i 1)

/-- The new hidden state as one array. -/
def hOut (x : FVec Ideal ⟨2, ![131072, 100]⟩ .f32) (C h : FVec Ideal ⟨2, ![131072, 256]⟩ .f32)
    (Wx : FVec Ideal ⟨2, ![100, 1024]⟩ .f32) (Wh : FVec Ideal ⟨2, ![256, 1024]⟩ .f32) (bx bh : FVec Ideal ⟨1, ![1024]⟩ .f32) :
    FVec Ideal ⟨2, ![131072, 256]⟩ .f32 := fun i => hAt x C h Wx Wh bx bh (i 0) (i 1)

end Cert.Lstm

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.BodyAt.lean ====
/-
  What the kernel body stores, entry by entry, at the ideal values.

  On a block of 2048 batch rows the body forms each gate's pre-activation from the block of `x`, the block of `h`, the
  gate's 256 columns of the two weight matrices and of the bias row — two matrix products into a zero accumulator, their
  sum, and the bias row spread over the rows —, then stores the new cell state σ(f)·C + σ(i)·tanh(g) and the new hidden
  state σ(o)·tanh(new cell state). A rounding to bfloat16 on the way into a product is the identity on the ideal values.
  At row `p`, column `q` of the block each product is the sum over its contracted coordinate, so a pre-activation is
  `Lstm.pre` of row `p` of the two blocks and column `q` of the gate's weights and bias.
-/
import proofs.«156843_j59425167507716_2_alg».proof.Proof.Gen.KernelIdeal.Skeleton
import proofs.«156843_j59425167507716_2_alg».proof.Proof.Cell
import proofs.«156843_j59425167507716_2_alg».proof.Proof.LibMatmulAt
import Idealize.ShloMosaic.Lib.ValueLayout

noncomputable section

namespace Cert.KernelIdeal.Body

open Cert.KernelIdeal Cert.KernelIdeal.Gen Idealize.ShloMosaic Idealize.ShloMosaic.ValueIdx Cert.Lstm Cert.KernelIdeal.Hand

/-- One gate's pre-activation on a block: the two products' sum plus the bias row, at row `p`, column `q`. -/
theorem gate_block_apply (xb : FVec Ideal S2048x100 .bf16) (hb : FVec Ideal S2048x256 .bf16) (wx : FVec Ideal S100x256 .bf16)
    (wh : FVec Ideal S256x256 .bf16) (b : Vec Ideal S1x256 .f32) (p : Fin 2048) (q : Fin 256) :
    addf (addf (matmul dot_S2048x100_S100x256_S2048x256_1_0_0_1_n_n none xb wx (constant S2048x256 .f32 0x00000000#32))
        (matmul dot_S2048x256_S256x256_S2048x256_1_0_0_1_n_n none hb wh (constant S2048x256 .f32 0x00000000#32)))
      (broadcastTo S2048x256 (shapeCast S1x256 b shapeCasts_S1x256_S1x256) broadcasts_S1x256_S2048x256) (ix2 p q)
      = pre (fun k => xb (ix2 p k)) (fun k => hb (ix2 p k)) (fun k => wx (ix2 k q)) (fun k => wh (ix2 k q)) (b (ix2 0 q)) := by
  have e1 := matmul_zero_plain_apply (M := 2048) (K := 100) (N := 256) dot_S2048x100_S100x256_S2048x256_1_0_0_1_n_n rfl none xb wx (ix2 p q)
  have e2 := matmul_zero_plain_apply (M := 2048) (K := 256) (N := 256) dot_S2048x256_S256x256_S2048x256_1_0_0_1_n_n rfl none hb wh (ix2 p q)
  have e3 : broadcastTo S2048x256 (shapeCast S1x256 b shapeCasts_S1x256_S1x256) broadcasts_S1x256_S2048x256 (ix2 p q) = b (ix2 0 q) :=
    (broadcastTo_1b_ab_apply (a := 2048) (b := 256) _ broadcasts_S1x256_S2048x256 p q).trans
      (congrFun (shapeCast_self b shapeCasts_S1x256_S1x256) _)
  exact congrArg₂ (fun u v : EReal => u + v) (congrArg₂ (fun u v : EReal => u + v) e1 e2) e3

/-- The product of the input gate and the candidate, as the body first forms it. -/
theorem pay5_apply (v0 : Vec Ideal S2048x100 .f32) (v2 : Vec Ideal S2048x256 .f32) (v4 : Vec Ideal S100x256 .f32)
    (v6 : Vec Ideal S256x256 .f32) (v8 : Vec Ideal S1x256 .f32) (v16 : Vec Ideal S100x256 .f32) (v18 : Vec Ideal S256x256 .f32)
    (v20 : Vec Ideal S1x256 .f32) (p : Fin 2048) (q : Fin 256) :
    k0_pay5 v0 v2 v4 v6 v8 v16 v18 v20 (ix2 p q)
      = Ideal.logistic (pre (fun k => v0 (ix2 p k)) (fun k => v2 (ix2 p k)) (fun k => v4 (ix2 k q)) (fun k => v6 (ix2 k q)) (v8 (ix2 0 q)))
        * Ideal.tanh (pre (fun k => v0 (ix2 p k)) (fun k => v2 (ix2 p k)) (fun k => v16 (ix2 k q)) (fun k => v18 (ix2 k q)) (v20 (ix2 0 q))) := by
  unfold k0_pay5 k0_pay3 k0_pay4
  exact congrArg₂ (fun a b : EReal => Ideal.logistic a * Ideal.tanh b)
    (gate_block_apply (truncf .bf16 v0 bitsLt_bf16_f32) (truncf .bf16 v2 bitsLt_bf16_f32) (truncf .bf16 v4 bitsLt_bf16_f32)
      (truncf .bf16 v6 bitsLt_bf16_f32) v8 p q)
    (gate_block_apply (truncf .bf16 v0 bitsLt_bf16_f32) (truncf .bf16 v2 bitsLt_bf16_f32) (truncf .bf16 v16 bitsLt_bf16_f32)
      (truncf .bf16 v18 bitsLt_bf16_f32) v20 p q)

/-- The stored new cell state: the forget gate times the old state, plus the product already formed. -/
theorem pay1_apply (v1 : FVec Ideal S2048x100 .bf16) (v3 : FVec Ideal S2048x256 .bf16) (v28 : FVec Ideal S2048x256 .f32)
    (v30 : FVec Ideal S100x256 .bf16) (v32 : FVec Ideal S256x256 .bf16) (v33 : Vec Ideal S1x256 .f32) (v41 : Vec Ideal S2048x256 .f32)
    (p : Fin 2048) (q : Fin 256) :
    k0_pay1 v1 v3 v28 v30 v32 v33 v41 (ix2 p q)
      = Ideal.logistic (pre (fun k => v1 (ix2 p k)) (fun k => v3 (ix2 p k)) (fun k => v30 (ix2 k q)) (fun k => v32 (ix2 k q)) (v33 (ix2 0 q)))
          * v41 (ix2 p q) + v28 (ix2 p q) := by
  unfold k0_pay1
  exact congrArg (fun a : EReal => Ideal.logistic a * v41 (ix2 p q) + v28 (ix2 p q)) (gate_block_apply v1 v3 v30 v32 v33 p q)

/-- The stored new hidden state: the output gate times tanh of the stored new cell state. -/
theorem pay2_apply (v1 : FVec Ideal S2048x100 .bf16) (v3 : FVec Ideal S2048x256 .bf16) (v28 : FVec Ideal S2048x256 .f32)
    (v30 : FVec Ideal S100x256 .bf16) (v32 : FVec Ideal S256x256 .bf16) (v33 : Vec Ideal S1x256 .f32) (v41 : Vec Ideal S2048x256 .f32)
    (v44 : Vec Ideal S100x256 .f32) (v46 : Vec Ideal S256x256 .f32) (v48 : Vec Ideal S1x256 .f32) (p : Fin 2048) (q : Fin 256) :
    k0_pay2 v1 v3 v28 v30 v32 v33 v41 v44 v46 v48 (ix2 p q)
      = Ideal.logistic (pre (fun k => v1 (ix2 p k)) (fun k => v3 (ix2 p k)) (fun k => v44 (ix2 k q)) (fun k => v46 (ix2 k q)) (v48 (ix2 0 q)))
          * Ideal.tanh (k0_pay1 v1 v3 v28 v30 v32 v33 v41 (ix2 p q)) := by
  unfold k0_pay2
  exact congrArg (fun a : EReal => Ideal.logistic a * Ideal.tanh (k0_pay1 v1 v3 v28 v30 v32 v33 v41 (ix2 p q)))
    (gate_block_apply v1 v3 (truncf .bf16 v44 bitsLt_bf16_f32) (truncf .bf16 v46 bitsLt_bf16_f32) v48 p q)

end Cert.KernelIdeal.Body

end
-- ==== Proof.BlockAt.lean ====
/-
  What one grid point leaves in the two output blocks, entry by entry, from the blocks it was given.

  A grid point holds 2048 batch rows: its block of `x`, of the old cell state and of `h`, and the whole of the two weight
  matrices and of the bias row (their windows never move). The body reads each gate's weights and bias as the 256-column
  slab of those whole arrays that starts at the gate's stacked column; column `q` of the slab at `o` is stacked column
  `o + q`. So at row `p`, column `q` the first output block holds the cell's new state of row `p` of the blocks and
  stacked columns `q`, `256 + q`, `512 + q`, and the second its new hidden state, with the output gate at `768 + q`.
-/
import proofs.«156843_j59425167507716_2_alg».proof.Proof.Gen.KernelIdeal.Frame
import proofs.«156843_j59425167507716_2_alg».proof.Proof.BodyAt

noncomputable section

namespace Cert.KernelIdeal.Body

open Cert.KernelIdeal Cert.KernelIdeal.Gen Idealize.ShloMosaic Idealize.ShloMosaic.ValueIdx Cert.Lstm

/-- The zero offsets of a whole-block access. -/
theorem hz : (![0, 0] : Fin 2 → Nat) = fun _ => 0 := funext fun a => by fin_cases a <;> rfl

/-- A gate's pre-activation at stacked column `n`, row `p` of a grid point's blocks. -/
def gateB (x0 : Vec Ideal S2048x100 .f32) (x2 : Vec Ideal S2048x256 .f32) (x3 : Vec Ideal S100x1024 .f32)
    (x4 : Vec Ideal S256x1024 .f32) (x5 : Vec Ideal S1x1024 .f32) (n : Fin 1024) (p : Fin 2048) : EReal :=
  pre (fun k => x0 (ix2 p k)) (fun k => x2 (ix2 p k)) (fun k => x3 (ix2 k n)) (fun k => x4 (ix2 k n)) (x5 (ix2 0 n))

/-- A 256-column slab of the input weights, read at row `k`, column `q`. -/
theorem ld_wx (X : Vec Ideal S100x1024 .f32) (o : Nat) (ho : o + 256 ≤ 1024)
    (inb : ∀ a, (![0, o] : Fin 2 → Nat) a + S100x256.size a ≤ S100x1024.size a) (k : Fin 100) (q : Fin 256) :
    View.ld X (Rect.unit (s := S100x1024) ![0, o] S100x256.size inb) (ix2 k q) = X (ix2 k (gcol o ho q)) := by
  refine congrArg X (funext fun a => Fin.ext ?_)
  match a with
  | ⟨0, _⟩ => show 0 + 1 * k.val = k.val; omega
  | ⟨1, _⟩ => show o + 1 * q.val = o + q.val; omega

/-- A 256-column slab of the recurrent weights, read at row `k`, column `q`. -/
theorem ld_wh (X : Vec Ideal S256x1024 .f32) (o : Nat) (ho : o + 256 ≤ 1024)
    (inb : ∀ a, (![0, o] : Fin 2 → Nat) a + S256x256.size a ≤ S256x1024.size a) (k : Fin 256) (q : Fin 256) :
    View.ld X (Rect.unit (s := S256x1024) ![0, o] S256x256.size inb) (ix2 k q) = X (ix2 k (gcol o ho q)) := by
  refine congrArg X (funext fun a => Fin.ext ?_)
  match a with
  | ⟨0, _⟩ => show 0 + 1 * k.val = k.val; omega
  | ⟨1, _⟩ => show o + 1 * q.val = o + q.val; omega

/-- A 256-column slab of the bias row, read at column `q`. -/
theorem ld_b (X : Vec Ideal S1x1024 .f32) (o : Nat) (ho : o + 256 ≤ 1024)
    (inb : ∀ a, (![0, o] : Fin 2 → Nat) a + S1x256.size a ≤ S1x1024.size a) (q : Fin 256) :
    View.ld X (Rect.unit (s := S1x1024) ![0, o] S1x256.size inb) (ix2 (0 : Fin 1) q) = X (ix2 (0 : Fin 1) (gcol o ho q)) := by
  refine congrArg X (funext fun a => Fin.ext ?_)
  match a with
  | ⟨0, _⟩ => rfl
  | ⟨1, _⟩ => show o + 1 * q.val = o + q.val; omega

/-- The pre-activation formed from the three slabs at `o` is the gate's at stacked column `o + q`. -/
theorem pre_slabs (x0 : Vec Ideal S2048x100 .f32) (x2 : Vec Ideal S2048x256 .f32) (x3 : Vec Ideal S100x1024 .f32)
    (x4 : Vec Ideal S256x1024 .f32) (x5 : Vec Ideal S1x1024 .f32) (o : Nat) (ho : o + 256 ≤ 1024)
    (inb3 : ∀ a, (![0, o] : Fin 2 → Nat) a + S100x256.size a ≤ S100x1024.size a)
    (inb4 : ∀ a, (![0, o] : Fin 2 → Nat) a + S256x256.size a ≤ S256x1024.size a)
    (inb5 : ∀ a, (![0, o] : Fin 2 → Nat) a + S1x256.size a ≤ S1x1024.size a) (p : Fin 2048) (q : Fin 256) :
    pre (fun k => x0 (ix2 p k)) (fun k => x2 (ix2 p k))
        (fun k => View.ld x3 (Rect.unit (s := S100x1024) ![0, o] S100x256.size inb3) (ix2 k q))
        (fun k => View.ld x4 (Rect.unit (s := S256x1024) ![0, o] S256x256.size inb4) (ix2 k q))
        (View.ld x5 (Rect.unit (s := S1x1024) ![0, o] S1x256.size inb5) (ix2 (0 : Fin 1) q))
      = gateB x0 x2 x3 x4 x5 (gcol o ho q) p := by
  unfold gateB
  rw [ld_b x5 o ho inb5 q, funext fun k => ld_wx x3 o ho inb3 k q, funext fun k => ld_wh x4 o ho inb4 k q]

variable (x0 : Vec Ideal S2048x100 .f32) (x1 x2 : Vec Ideal S2048x256 .f32) (x3 : Vec Ideal S100x1024 .f32)
  (x4 : Vec Ideal S256x1024 .f32) (x5 : Vec Ideal S1x1024 .f32)

/-- The value the body stores into the first output block, at row `p`, column `q`. -/
theorem stored_c_apply (p : Fin 2048) (q : Fin 256) :
    k0_pay1 (k0_pay3 x0) (k0_pay4 x2)
        (k0_pay5 x0 x2 (View.ld x3 r0_2) (View.ld x4 r0_3) (View.ld x5 r0_4) (View.ld x3 r0_5) (View.ld x4 r0_6) (View.ld x5 r0_7))
        (k0_pay6 (View.ld x3 r0_8)) (k0_pay7 (View.ld x4 r0_9)) (View.ld x5 r0_10) x1 (ix2 p q)
      = cellC (gateB x0 x2 x3 x4 x5 (gcol 0 (by omega) q) p) (gateB x0 x2 x3 x4 x5 (gcol 256 (by omega) q) p)
          (gateB x0 x2 x3 x4 x5 (gcol 512 (by omega) q) p) (x1 (ix2 p q)) := by
  have hi := pre_slabs x0 x2 x3 x4 x5 0 (by omega) inb_S100x1024_S100x256_0_0 inb_S256x1024_S256x256_0_0 inb_S1x1024_S1x256_0_0 p q
  have hf := pre_slabs x0 x2 x3 x4 x5 256 (by omega) inb_S100x1024_S100x256_0_256 inb_S256x1024_S256x256_0_256 inb_S1x1024_S1x256_0_256 p q
  have hg := pre_slabs x0 x2 x3 x4 x5 512 (by omega) inb_S100x1024_S100x256_0_512 inb_S256x1024_S256x256_0_512 inb_S1x1024_S1x256_0_512 p q
  refine (pay1_apply _ _ _ _ _ _ _ p q).trans ?_
  refine (congrArg (fun z : EReal => _ + z) (pay5_apply _ _ _ _ _ _ _ _ p q)).trans ?_
  exact congrArg₂ (fun a b : EReal => a * x1 (ix2 p q) + b) (congrArg Ideal.logistic hf)
    (congrArg₂ (fun a b : EReal => Ideal.logistic a * Ideal.tanh b) hi hg)

/-- The first output block after the body: the new cell state of the point's rows. -/
theorem out6_apply (p : Fin 2048) (q : Fin 256) :
    out0_6 x0 x1 x2 x3 x4 x5 (ix2 p q)
      = cellC (gateB x0 x2 x3 x4 x5 (gcol 0 (by omega) q) p) (gateB x0 x2 x3 x4 x5 (gcol 256 (by omega) q) p)
          (gateB x0 x2 x3 x4 x5 (gcol 512 (by omega) q) p) (x1 (ix2 p q)) := by
  unfold out0_6
  rw [View.canon_unit_zero hz]
  simp only [View.ld_unit_zero (S := S2048x100) hz, View.ld_unit_zero (S := S2048x256) hz]
  exact stored_c_apply x0 x1 x2 x3 x4 x5 p q

/-- The second output block after the body: the new hidden state of the point's rows. -/
theorem out7_apply (p : Fin 2048) (q : Fin 256) :
    out0_7 x0 x1 x2 x3 x4 x5 (ix2 p q)
      = cellH (gateB x0 x2 x3 x4 x5 (gcol 768 (by omega) q) p)
          (cellC (gateB x0 x2 x3 x4 x5 (gcol 0 (by omega) q) p) (gateB x0 x2 x3 x4 x5 (gcol 256 (by omega) q) p)
            (gateB x0 x2 x3 x4 x5 (gcol 512 (by omega) q) p) (x1 (ix2 p q))) := by
  have ho := pre_slabs x0 x2 x3 x4 x5 768 (by omega) inb_S100x1024_S100x256_0_768 inb_S256x1024_S256x256_0_768 inb_S1x1024_S1x256_0_768 p q
  unfold out0_7
  rw [View.canon_unit_zero hz]
  simp only [View.ld_unit_zero (S := S2048x100) hz, View.ld_unit_zero (S := S2048x256) hz]
  refine (pay2_apply _ _ _ _ _ _ _ _ _ _ p q).trans ?_
  exact congrArg₂ (fun a b : EReal => Ideal.logistic a * Ideal.tanh b) ho (stored_c_apply x0 x1 x2 x3 x4 x5 p q)

end Cert.KernelIdeal.Body

end
-- ==== Proof.Arrays.lean ====
/-
  From blocks to whole arrays: after the kernel's run its two output arrays hold the LSTM cell of the argument arrays.

  The grid has 64 points; point `t` is given rows `2048·t … 2048·t + 2047` of `x`, of the old cell state and of `h` —
  a block's element sits in its array at block index × block size + its coordinate inside the block —, and the whole of
  the two weight matrices and of the bias row, whose block index is always zero. The bias row the region finds is the
  host's `bx + bh` recast from 1024 entries to one row of 1024. So what point `t` writes back to either output array is
  block `t` of ONE function of the whole arrays, the cell of Cell.lean; the 64 blocks of 2048 rows cover all 131072 rows
  (row `r` lies in block `r / 2048`), hence each output array ends as that function.
-/
import proofs.«156843_j59425167507716_2_alg».proof.Proof.Gen.KernelIdeal.Value
import proofs.«156843_j59425167507716_2_alg».proof.Proof.BlockAt
import Idealize.ShloMosaic.Lib.StableHlo.Run

set_option maxRecDepth 16384

noncomputable section

namespace Cert.KernelIdeal.Whole

open Cert.KernelIdeal Cert.KernelIdeal.Gen Cert.KernelIdeal.Body Idealize.ShloMosaic Idealize.ShloMosaic.TcCoe Idealize.SL.Sem
open Idealize.ShloMosaic.ValueIdx Idealize.ShloMosaic.StableHlo Cert.Lstm
open Idealize.ShloMosaic.Pipeline (Dat)

variable (m : (ℓ : Loc nD τ sig) → Buf (Elt Ideal) ℓ) (ρ : Dev nD → PrngReg)

/-! ## The printed index maps over the grid -/

/-- Decided over the 64 points: the three row-blocked inputs and the second output move with the first output's block
    index along the rows, nothing moves along the columns, the weights and the bias stay at block zero, and the block
    index stays below 64. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_7.index t (0 : Fin 2) = win0_6.index t (0 : Fin 2) ∧ win0_7.index t (1 : Fin 2) = 0
    ∧ win0_6.index t (1 : Fin 2) = 0 ∧ win0_6.index t (0 : Fin 2) ≤ 63 :=
  (by decide +kernel : ∀ t : Fin grid0.N, _)

/-- Every one of the 64 row blocks is some point's, for either output. -/
theorem idx_onto6 : ∀ b : Fin 64, ∃ t : Fin cfg0.N, win0_6.index t = ![b.val, 0] :=
  (by decide +kernel : ∀ b : Fin 64, ∃ t : Fin grid0.N, win0_6.index t = ![b.val, 0])

theorem idx_onto7 : ∀ b : Fin 64, ∃ t : Fin cfg0.N, win0_7.index t = ![b.val, 0] :=
  (by decide +kernel : ∀ b : Fin 64, ∃ t : Fin grid0.N, win0_7.index t = ![b.val, 0])

/-- Row `p` of row block `b`. -/
def row (b : Nat) (hb : b ≤ 63) (p : Fin 2048) : Fin 131072 := ⟨b * 2048 + p.val, by have := p.isLt; omega⟩

/-! ## The bias row the region finds -/

/-- The two bias vectors as launched. -/
abbrev bxArr (c : Dev nD) : FVec Ideal S1024 .f32 := m ((c : Thread nD τ).loc main_arg5)
abbrev bhArr (c : Dev nD) : FVec Ideal S1024 .f32 := m ((c : Thread nD τ).loc main_arg6)

/-- It is the host's sum of the two bias vectors, recast to one row. -/
theorem V_bias (c : Dev nD) (n : Fin 1024) :
    V m c main_v1 (ix2 (0 : Fin 1) n) = bxArr m c (ix1 n) + bhArr m c (ix1 n) := by
  have e : @Eq (FVec Ideal S1x1024 .f32) (V m c main_v1)
      (shapeCast S1x1024 (addf (bxArr m c) (bhArr m c)) shapeCasts_S1024_S1x1024) := by
    dsimp only [V, hostOps0]; after_results; rfl
  exact (congrFun e _).trans (shapeCast_a_1a_apply _ shapeCasts_S1024_S1x1024 0 n)

/-! ## Each window's block, read off its array -/

section blocks
variable (c : Dev nD) (t : Fin cfg0.N) (hb : win0_6.index t (0 : Fin 2) ≤ 63)

theorem blk_x (p : Fin 2048) (k : Fin 100) :
    iblk m c 0 t (ix2 p k) = V m c main_arg0 (ix2 (row (win0_6.index t (0 : Fin 2)) hb p) k) := by
  obtain ⟨e0, e1, -⟩ := idx_facts t
  show V m c main_arg0 (((cfg0.win 0).blk t).view.emb (ix2 p k)) = _
  refine congrArg (V m c main_arg0) (funext fun a => Fin.ext ?_)
  match a with
  | ⟨0, _⟩ => show win0_0.index t (0 : Fin 2) * 2048 + 1 * p.val = win0_6.index t (0 : Fin 2) * 2048 + p.val; omega
  | ⟨1, _⟩ => show win0_0.index t (1 : Fin 2) * 100 + 1 * k.val = k.val; omega

theorem blk_c (p : Fin 2048) (q : Fin 256) :
    iblk m c 1 t (ix2 p q) = V m c main_arg1 (ix2 (row (win0_6.index t (0 : Fin 2)) hb p) q) := by
  obtain ⟨-, -, e0, e1, -⟩ := idx_facts t
  show V m c main_arg1 (((cfg0.win 1).blk t).view.emb (ix2 p q)) = _
  refine congrArg (V m c main_arg1) (funext fun a => Fin.ext ?_)
  match a with
  | ⟨0, _⟩ => show win0_1.index t (0 : Fin 2) * 2048 + 1 * p.val = win0_6.index t (0 : Fin 2) * 2048 + p.val; omega
  | ⟨1, _⟩ => show win0_1.index t (1 : Fin 2) * 256 + 1 * q.val = q.val; omega

theorem blk_h (p : Fin 2048) (k : Fin 256) :
    iblk m c 2 t (ix2 p k) = V m c main_arg2 (ix2 (row (win0_6.index t (0 : Fin 2)) hb p) k) := by
  obtain ⟨-, -, -, -, e0, e1, -⟩ := idx_facts t
  show V m c main_arg2 (((cfg0.win 2).blk t).view.emb (ix2 p k)) = _
  refine congrArg (V m c main_arg2) (funext fun a => Fin.ext ?_)
  match a with
  | ⟨0, _⟩ => show win0_2.index t (0 : Fin 2) * 2048 + 1 * p.val = win0_6.index t (0 : Fin 2) * 2048 + p.val; omega
  | ⟨1, _⟩ => show win0_2.index t (1 : Fin 2) * 256 + 1 * k.val = k.val; omega

theorem blk_wx (k : Fin 100) (n : Fin 1024) : iblk m c 3 t (ix2 k n) = V m c main_arg3 (ix2 k n) := by
  obtain ⟨-, -, -, -, -, -, e0, e1, -⟩ := idx_facts t
  show V m c main_arg3 (((cfg0.win 3).blk t).view.emb (ix2 k n)) = _
  refine congrArg (V m c main_arg3) (funext fun a => Fin.ext ?_)
  match a with
  | ⟨0, _⟩ => show win0_3.index t (0 : Fin 2) * 100 + 1 * k.val = k.val; omega
  | ⟨1, _⟩ => show win0_3.index t (1 : Fin 2) * 1024 + 1 * n.val = n.val; omega

theorem blk_wh (k : Fin 256) (n : Fin 1024) : iblk m c 4 t (ix2 k n) = V m c main_arg4 (ix2 k n) := by
  obtain ⟨-, -, -, -, -, -, -, -, e0, e1, -⟩ := idx_facts t
  show V m c main_arg4 (((cfg0.win 4).blk t).view.emb (ix2 k n)) = _
  refine congrArg (V m c main_arg4) (funext fun a => Fin.ext ?_)
  match a with
  | ⟨0, _⟩ => show win0_4.index t (0 : Fin 2) * 256 + 1 * k.val = k.val; omega
  | ⟨1, _⟩ => show win0_4.index t (1 : Fin 2) * 1024 + 1 * n.val = n.val; omega

theorem blk_b (n : Fin 1024) :
    iblk m c 5 t (ix2 (0 : Fin 1) n) = bxArr m c (ix1 n) + bhArr m c (ix1 n) := by
  obtain ⟨-, -, -, -, -, -, -, -, -, -, e0, e1, -⟩ := idx_facts t
  refine Eq.trans ?_ (V_bias m c n)
  show V m c main_v1 (((cfg0.win 5).blk t).view.emb (ix2 (0 : Fin 1) n)) = _
  refine congrArg (V m c main_v1) (funext fun a => Fin.ext ?_)
  match a with
  | ⟨0, _⟩ => show win0_5.index t (0 : Fin 2) * 1 + 1 * 0 = 0; omega
  | ⟨1, _⟩ => show win0_5.index t (1 : Fin 2) * 1024 + 1 * n.val = n.val; omega

/-- A gate's pre-activation from the point's blocks is the gate's from the whole arrays, at the block's row. -/
theorem gateB_blk (n : Fin 1024) (p : Fin 2048) :
    gateB (iblk m c 0 t) (iblk m c 2 t) (iblk m c 3 t) (iblk m c 4 t) (iblk m c 5 t) n p
      = gate (V m c main_arg0) (V m c main_arg2) (V m c main_arg3) (V m c main_arg4)
          (m ((c : Thread nD τ).loc main_arg5)) (m ((c : Thread nD τ).loc main_arg6)) n (row (win0_6.index t (0 : Fin 2)) hb p) :=
  pre_congr (fun k => blk_x m c t hb p k) (fun k => blk_h m c t hb p k) (fun k => blk_wx m c t k n) (fun k => blk_wh m c t k n)
    (blk_b m c t n)

/-- An element of the first output's block sits in its array at the block's row. -/
theorem emb6 (p : Fin 2048) (q : Fin 256) :
    ((cfg0.win 6).blk t).view.emb (ix2 p q) = ix2 (row (win0_6.index t (0 : Fin 2)) hb p) q := by
  obtain ⟨-, -, -, -, -, -, -, -, -, -, -, -, -, -, e1, -⟩ := idx_facts t
  refine funext fun a => Fin.ext ?_
  match a with
  | ⟨0, _⟩ => show win0_6.index t (0 : Fin 2) * 2048 + 1 * p.val = win0_6.index t (0 : Fin 2) * 2048 + p.val; omega
  | ⟨1, _⟩ => show win0_6.index t (1 : Fin 2) * 256 + 1 * q.val = q.val; omega

/-- And of the second output's block likewise. -/
theorem emb7 (p : Fin 2048) (q : Fin 256) :
    ((cfg0.win 7).blk t).view.emb (ix2 p q) = ix2 (row (win0_6.index t (0 : Fin 2)) hb p) q := by
  obtain ⟨-, -, -, -, -, -, -, -, -, -, -, -, e0, e1, -⟩ := idx_facts t
  refine funext fun a => Fin.ext ?_
  match a with
  | ⟨0, _⟩ => show win0_7.index t (0 : Fin 2) * 2048 + 1 * p.val = win0_6.index t (0 : Fin 2) * 2048 + p.val; omega
  | ⟨1, _⟩ => show win0_7.index t (1 : Fin 2) * 256 + 1 * q.val = q.val; omega

end blocks

/-! ## What a point writes back -/

/-- The new cell state of the arrays as the region finds them. -/
abbrev cellArr (c : Dev nD) : FVec Ideal S131072x256 .f32 :=
  cOut (V m c main_arg0) (V m c main_arg1) (V m c main_arg2) (V m c main_arg3) (V m c main_arg4)
    (m ((c : Thread nD τ).loc main_arg5)) (m ((c : Thread nD τ).loc main_arg6))

/-- The new hidden state of the arrays as the region finds them. -/
abbrev hiddenArr (c : Dev nD) : FVec Ideal S131072x256 .f32 :=
  hOut (V m c main_arg0) (V m c main_arg1) (V m c main_arg2) (V m c main_arg3) (V m c main_arg4)
    (m ((c : Thread nD τ).loc main_arg5)) (m ((c : Thread nD τ).loc main_arg6))

/-- Point `t` writes back block `t` of the new cell state. -/
theorem flushed6_eq (c : Dev nD) (t : Fin cfg0.N) :
    (dats m 0 c).flushed 6 t = ((cfg0.win 6).blk t).view.read (Elt Ideal) (cellArr m c) := by
  have hb : win0_6.index t (0 : Fin 2) ≤ 63 := (idx_facts t).2.2.2.2.2.2.2.2.2.2.2.2.2.2.2
  rw [Value.flushed6]
  funext y
  obtain ⟨p, q, rfl⟩ : ∃ (p : Fin 2048) (q : Fin 256), y = ix2 p q := ⟨y 0, y 1, eq_ix2 y⟩
  show out0_6 (iblk m c 0 t) (iblk m c 1 t) (iblk m c 2 t) (iblk m c 3 t) (iblk m c 4 t) (iblk m c 5 t) (ix2 p q)
    = cellArr m c (((cfg0.win 6).blk t).view.emb (ix2 p q))
  rw [emb6 t hb p q]
  refine (out6_apply (iblk m c 0 t) (iblk m c 1 t) (iblk m c 2 t) (iblk m c 3 t) (iblk m c 4 t) (iblk m c 5 t) p q).trans ?_
  show _ = cAt _ _ _ _ _ _ _ (row (win0_6.index t (0 : Fin 2)) hb p) q
  unfold cAt
  rw [gateB_blk m c t hb, gateB_blk m c t hb, gateB_blk m c t hb, blk_c m c t hb p q]

/-- Point `t` writes back block `t` of the new hidden state. -/
theorem flushed7_eq (c : Dev nD) (t : Fin cfg0.N) :
    (dats m 0 c).flushed 7 t = ((cfg0.win 7).blk t).view.read (Elt Ideal) (hiddenArr m c) := by
  have hb : win0_6.index t (0 : Fin 2) ≤ 63 := (idx_facts t).2.2.2.2.2.2.2.2.2.2.2.2.2.2.2
  rw [Value.flushed7]
  funext y
  obtain ⟨p, q, rfl⟩ : ∃ (p : Fin 2048) (q : Fin 256), y = ix2 p q := ⟨y 0, y 1, eq_ix2 y⟩
  show out0_7 (iblk m c 0 t) (iblk m c 1 t) (iblk m c 2 t) (iblk m c 3 t) (iblk m c 4 t) (iblk m c 5 t) (ix2 p q)
    = hiddenArr m c (((cfg0.win 7).blk t).view.emb (ix2 p q))
  rw [emb7 t hb p q]
  refine (out7_apply (iblk m c 0 t) (iblk m c 1 t) (iblk m c 2 t) (iblk m c 3 t) (iblk m c 4 t) (iblk m c 5 t) p q).trans ?_
  show _ = hAt _ _ _ _ _ _ _ (row (win0_6.index t (0 : Fin 2)) hb p) q
  unfold hAt cAt
  rw [gateB_blk m c t hb, gateB_blk m c t hb, gateB_blk m c t hb, gateB_blk m c t hb, blk_c m c t hb p q]

/-! ## The blocks cover the arrays -/

theorem mem_blk6 (t : Fin cfg0.N) (i : S131072x256.Idx) :
    i ∈ ((cfg0.win 6).blk t).view.set ↔ ∀ a : Fin 2, win0_6.index t a * S2048x256.size a ≤ (i a).val
      ∧ (i a).val < win0_6.index t a * S2048x256.size a + S2048x256.size a := by
  show i ∈ ((View.whole main_v2_0).slice (win0_6.rect t)).set ↔ _
  rw [View.set_slice_whole, Rect.mem_set_unit]
  exact Iff.rfl

theorem mem_blk7 (t : Fin cfg0.N) (i : S131072x256.Idx) :
    i ∈ ((cfg0.win 7).blk t).view.set ↔ ∀ a : Fin 2, win0_7.index t a * S2048x256.size a ≤ (i a).val
      ∧ (i a).val < win0_7.index t a * S2048x256.size a + S2048x256.size a := by
  show i ∈ ((View.whole main_v2_1).slice (win0_7.rect t)).set ↔ _
  rw [View.set_slice_whole, Rect.mem_set_unit]
  exact Iff.rfl

/-- Row `r` lies in the block of point `r / 2048`. -/
theorem cover6 (i : S131072x256.Idx) :
    ∃ t : Fin cfg0.N, (cfg0.win 6).flush t = true ∧ i ∈ ((cfg0.win 6).blk t).view.set := by
  have hi0 : (i 0).val < 131072 := (i 0).isLt
  have hi1 : (i 1).val < 256 := (i 1).isLt
  obtain ⟨t, ht⟩ := idx_onto6 ⟨(i 0).val / 2048, by omega⟩
  have q0 : win0_6.index t (0 : Fin 2) = (i 0).val / 2048 := congrFun ht 0
  have q1 : win0_6.index t (1 : Fin 2) = 0 := congrFun ht 1
  refine ⟨t, flush0_6 t, ?_⟩
  rw [mem_blk6]
  intro a
  match a with
  | ⟨0, _⟩ =>
    show win0_6.index t (0 : Fin 2) * 2048 ≤ (i 0).val ∧ (i 0).val < win0_6.index t (0 : Fin 2) * 2048 + 2048
    omega
  | ⟨1, _⟩ =>
    show win0_6.index t (1 : Fin 2) * 256 ≤ (i 1).val ∧ (i 1).val < win0_6.index t (1 : Fin 2) * 256 + 256
    omega

theorem cover7 (i : S131072x256.Idx) :
    ∃ t : Fin cfg0.N, (cfg0.win 7).flush t = true ∧ i ∈ ((cfg0.win 7).blk t).view.set := by
  have hi0 : (i 0).val < 131072 := (i 0).isLt
  have hi1 : (i 1).val < 256 := (i 1).isLt
  obtain ⟨t, ht⟩ := idx_onto7 ⟨(i 0).val / 2048, by omega⟩
  have q0 : win0_7.index t (0 : Fin 2) = (i 0).val / 2048 := congrFun ht 0
  have q1 : win0_7.index t (1 : Fin 2) = 0 := congrFun ht 1
  refine ⟨t, flush0_7 t, ?_⟩
  rw [mem_blk7]
  intro a
  match a with
  | ⟨0, _⟩ =>
    show win0_7.index t (0 : Fin 2) * 2048 ≤ (i 0).val ∧ (i 0).val < win0_7.index t (0 : Fin 2) * 2048 + 2048
    omega
  | ⟨1, _⟩ =>
    show win0_7.index t (1 : Fin 2) * 256 ≤ (i 1).val ∧ (i 1).val < win0_7.index t (1 : Fin 2) * 256 + 256
    omega

/-! ## The arrays after the run -/

/-- The first output array ends as the new cell state of the arguments. -/
theorem final6 (c : Dev nD) :
    (dats m 0 c).arrAt 6 cfg0.N
      = cOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  have h := (dats m 0 c).arrAt_eq_of_cover 6 (cellArr m c) (fun t _ => flushed6_eq m c t) cover6
  rw [h]
  show cOut (V m c main_arg0) (V m c main_arg1) (V m c main_arg2) (V m c main_arg3) (V m c main_arg4) _ _ = _
  rw [V_main_arg0 m c, V_main_arg1 m c, V_main_arg2 m c, V_main_arg3 m c, V_main_arg4 m c]

/-- The second output array ends as the new hidden state of the arguments. -/
theorem final7 (c : Dev nD) :
    (dats m 0 c).arrAt 7 cfg0.N
      = hOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  have h := (dats m 0 c).arrAt_eq_of_cover 7 (hiddenArr m c) (fun t _ => flushed7_eq m c t) cover7
  rw [h]
  show hOut (V m c main_arg0) (V m c main_arg1) (V m c main_arg2) (V m c main_arg3) (V m c main_arg4) _ _ = _
  rw [V_main_arg0 m c, V_main_arg1 m c, V_main_arg2 m c, V_main_arg3 m c, V_main_arg4 m c]

/-- The kernel's run: both results at the cell of the arguments, the arguments unchanged. -/
theorem run : θ_run defs (onTc (τ := τ) (main (F := Ideal))) ⟨m, fun _ => 0, ρ⟩ fun r => ∀ c : Dev nD,
      r.2.mem ((c : Thread nD τ).loc main_v2_0)
        = cOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_v2_1)
        = hOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final6 m c), (h c).2.1.trans (final7 m c), (h c).2.2⟩)
    (Value.run_blocks m ρ)

end Cert.KernelIdeal.Whole

end
-- ==== Proof.RefCell.lean ====
/-
  The reference computes the LSTM cell of Cell.lean, entry by entry.

  It forms the stacked pre-activations of all 1024 gate columns at once, `(x·Wx + bx) + (h·Wh + bh)`, cuts them into the
  four gates' 256-column slices, spells the logistic function out as `1 / (1 + exp (−z))`, and combines. At an entry
  each matrix product is the sum over the contracted coordinate; the two biases, each added to its own product, regroup
  into the cell's one bias sum (`Lstm.pre_split`); column `j` of the slice starting at `o` is stacked column `o + j`;
  and the spelt-out quotient is the logistic function, the literal `1.0` being the extended real one.
-/
import proofs.«156843_j59425167507716_2_alg».proof.Proof.Gen.ReferenceIdeal.Read
import proofs.«156843_j59425167507716_2_alg».proof.Proof.Cell
import Idealize.ShloMosaic.Lib.IdealHost

noncomputable section

namespace Cert.ReferenceIdeal.RefValue

open Cert.ReferenceIdeal Cert.ReferenceIdeal.Read Idealize.ShloMosaic Idealize.ShloMosaic.ValueIdx Cert.Lstm

/-- The host's `1 / (1 + exp (−z))`, with both ones the literal `1.0`, is the logistic function. -/
theorem quotient_eq_logistic (z : EReal) :
    Ideal.div (Ideal.ofBits .f32 0x3F800000#32) (Ideal.ofBits .f32 0x3F800000#32 + Ideal.exp (-z)) = Ideal.logistic z := by
  rw [Ideal.ofBits_one_f32]; rfl

variable (x0 : FVec Ideal S131072x100 .f32) (x1 x2 : FVec Ideal S131072x256 .f32) (x3 : FVec Ideal S100x1024 .f32)
  (x4 : FVec Ideal S256x1024 .f32) (x5 x6 : FVec Ideal S1024 .f32)

/-- The stacked pre-activations at row `r`, stacked column `n`. -/
theorem stacked_apply (r : Fin 131072) (n : Fin 1024) :
    val_main_v8 (F := Ideal) x0 x2 x3 x4 x5 x6 (ix2 r n) = gate x0 x2 x3 x4 x5 x6 n r := by
  have el0 : ∀ k, lidx_main_v0 (ix2 r n) k = ix2 r k := fun k => funext fun a => Fin.ext (by
    match a with | ⟨0, _⟩ => rfl | ⟨1, _⟩ => rfl)
  have er0 : ∀ k, ridx_main_v0 (ix2 r n) k = ix2 k n := fun k => funext fun a => Fin.ext (by
    match a with | ⟨0, _⟩ => rfl | ⟨1, _⟩ => rfl)
  have el4 : ∀ k, lidx_main_v4 (ix2 r n) k = ix2 r k := fun k => funext fun a => Fin.ext (by
    match a with | ⟨0, _⟩ => rfl | ⟨1, _⟩ => rfl)
  have er4 : ∀ k, ridx_main_v4 (ix2 r n) k = ix2 k n := fun k => funext fun a => Fin.ext (by
    match a with | ⟨0, _⟩ => rfl | ⟨1, _⟩ => rfl)
  have e1 : idx_main_v1 (idx_main_v2 (ix2 r n)) = ix1 n := funext fun a => Fin.ext (by
    match a with | ⟨0, _⟩ => rfl)
  have e5 : idx_main_v5 (idx_main_v6 (ix2 r n)) = ix1 n := funext fun a => Fin.ext (by
    match a with | ⟨0, _⟩ => rfl)
  rw [val_main_v8_apply, val_main_v3_apply, val_main_v7_apply, val_main_v0_apply, val_main_v4_apply, val_main_v2_apply,
    val_main_v6_apply, val_main_v1_apply, val_main_v5_apply, e1, e5]
  simp only [el0, er0, el4, er4, Ideal.addf_def]
  exact pre_split _ _ _ _ _ _

/-- The input gate's slice: columns 0–255. -/
theorem slice_i_apply (r : Fin 131072) (j : Fin 256) :
    val_main_v9 (F := Ideal) x0 x2 x3 x4 x5 x6 (ix2 r j) = gate x0 x2 x3 x4 x5 x6 (gcol 0 (by omega) j) r := by
  have e : idx_main_v9 (ix2 r j) = ix2 r (gcol 0 (by omega) j) := funext fun a => Fin.ext (by
    match a with
    | ⟨0, _⟩ => rfl
    | ⟨1, _⟩ => show j.val = 0 + j.val; omega)
  rw [val_main_v9_apply, e, stacked_apply]

/-- The forget gate's slice: columns 256–511. -/
theorem slice_f_apply (r : Fin 131072) (j : Fin 256) :
    val_main_v10 (F := Ideal) x0 x2 x3 x4 x5 x6 (ix2 r j) = gate x0 x2 x3 x4 x5 x6 (gcol 256 (by omega) j) r := by
  have e : idx_main_v10 (ix2 r j) = ix2 r (gcol 256 (by omega) j) := funext fun a => Fin.ext (by
    match a with
    | ⟨0, _⟩ => rfl
    | ⟨1, _⟩ => rfl)
  rw [val_main_v10_apply, e, stacked_apply]

/-- The candidate's slice: columns 512–767. -/
theorem slice_g_apply (r : Fin 131072) (j : Fin 256) :
    val_main_v11 (F := Ideal) x0 x2 x3 x4 x5 x6 (ix2 r j) = gate x0 x2 x3 x4 x5 x6 (gcol 512 (by omega) j) r := by
  have e : idx_main_v11 (ix2 r j) = ix2 r (gcol 512 (by omega) j) := funext fun a => Fin.ext (by
    match a with
    | ⟨0, _⟩ => rfl
    | ⟨1, _⟩ => rfl)
  rw [val_main_v11_apply, e, stacked_apply]

/-- The output gate's slice: columns 768–1023. -/
theorem slice_o_apply (r : Fin 131072) (j : Fin 256) :
    val_main_v12 (F := Ideal) x0 x2 x3 x4 x5 x6 (ix2 r j) = gate x0 x2 x3 x4 x5 x6 (gcol 768 (by omega) j) r := by
  have e : idx_main_v12 (ix2 r j) = ix2 r (gcol 768 (by omega) j) := funext fun a => Fin.ext (by
    match a with
    | ⟨0, _⟩ => rfl
    | ⟨1, _⟩ => rfl)
  rw [val_main_v12_apply, e, stacked_apply]

/-- The reference's first result at an entry is the new cell state there. -/
theorem cell_apply (r : Fin 131072) (j : Fin 256) :
    val_main_v34 (F := Ideal) x0 x1 x2 x3 x4 x5 x6 (ix2 r j) = cAt x0 x1 x2 x3 x4 x5 x6 r j := by
  rw [val_main_v34_apply, val_main_v32_apply, val_main_v33_apply, val_main_v24_apply, val_main_v18_apply, val_main_v25_apply,
    val_main_v23_apply, val_main_v22_apply, val_main_v21_apply, val_main_v20_apply, val_main_v19_apply,
    val_main_v17_apply, val_main_v16_apply, val_main_v15_apply, val_main_v14_apply, val_main_v13_apply,
    val_main_cst_apply, val_main_cst_0_apply, val_main_cst_1_apply, val_main_cst_2_apply,
    slice_i_apply, slice_f_apply, slice_g_apply]
  simp only [Ideal.addf_def, Ideal.mulf_def, Ideal.hostDivf_def, Ideal.hostUnary_exp_def, Ideal.hostUnary_tanh_def,
    Ideal.hostNegf_def, Ideal.negf_def, Ideal.ofBits_def, quotient_eq_logistic]
  rfl

/-- The reference's first result is the new cell state. -/
theorem cell_eq : val_main_v34 (F := Ideal) x0 x1 x2 x3 x4 x5 x6 = cOut x0 x1 x2 x3 x4 x5 x6 := by
  funext i
  obtain ⟨r, j, rfl⟩ : ∃ (r : Fin 131072) (j : Fin 256), i = ix2 r j := ⟨i 0, i 1, eq_ix2 i⟩
  exact cell_apply x0 x1 x2 x3 x4 x5 x6 r j

/-- The reference's second result is the new hidden state. -/
theorem hidden_eq : val_main_v36 (F := Ideal) x0 x1 x2 x3 x4 x5 x6 = hOut x0 x1 x2 x3 x4 x5 x6 := by
  funext i
  obtain ⟨r, j, rfl⟩ : ∃ (r : Fin 131072) (j : Fin 256), i = ix2 r j := ⟨i 0, i 1, eq_ix2 i⟩
  rw [val_main_v36_apply, val_main_v35_apply, cell_apply, val_main_v31_apply, val_main_v30_apply, val_main_v29_apply,
    val_main_v28_apply, val_main_v27_apply, val_main_v26_apply, val_main_cst_3_apply, val_main_cst_4_apply, slice_o_apply]
  simp only [Ideal.addf_def, Ideal.mulf_def, Ideal.hostDivf_def, Ideal.hostUnary_exp_def, Ideal.hostUnary_tanh_def,
    Ideal.hostNegf_def, Ideal.negf_def, Ideal.ofBits_def, quotient_eq_logistic]
  rfl

end Cert.ReferenceIdeal.RefValue

end
-- ==== Proof.lean ====
/- An LSTM cell, fused into one kernel over blocks of 2048 batch rows, against the plain reference: the five claims.

   Both programs compute, for every batch row and hidden column, the four gates' pre-activations
   `x·Wx + h·Wh + bx + bh` on the stacked 1024-column gate axis, the new cell state σ(f)·C + σ(i)·tanh(g) and the new
   hidden state σ(o)·tanh(new cell state). They differ in how the work is laid out, never in the extended real it means:
   • the kernel rounds its matrix operands to bfloat16 (the identity on the ideal values), multiplies one gate's 256
     columns at a time into a zero accumulator, and adds the host's pre-added bias `bx + bh`; the reference multiplies all
     1024 columns at once, adds each bias to its own product, and slices the gates out afterwards — a sum of four terms
     regrouped, which needs no finiteness on the extended reals (Proof/Cell.lean);
   • the kernel's logistic operation is `1 / (1 + exp (−z))`, which the reference spells out (Proof/RefCell.lean);
   • the kernel's 64 blocks of rows tile the 131072 rows (Proof/Arrays.lean, over Proof/BlockAt.lean and Proof/BodyAt.lean).
   The three frames are the generated runs; the idealization rewrote nothing, so `preserves` is trivial. The precondition
   (finite inputs) is never opened. -/
import proofs.«156843_j59425167507716_2_alg».proof.Defs
import proofs.«156843_j59425167507716_2_alg».proof.Proof.Gen.Kernel
import proofs.«156843_j59425167507716_2_alg».proof.Proof.Gen.Kernel.Frame
import proofs.«156843_j59425167507716_2_alg».proof.Proof.Gen.KernelIdeal
import proofs.«156843_j59425167507716_2_alg».proof.Proof.Gen.KernelIdeal.Frame
import proofs.«156843_j59425167507716_2_alg».proof.Proof.Gen.ReferenceIdeal
import proofs.«156843_j59425167507716_2_alg».proof.Proof.Gen.ReferenceIdeal.Run
import proofs.«156843_j59425167507716_2_alg».proof.Proof.Gen.ReferenceIdeal.Read
import proofs.«156843_j59425167507716_2_alg».proof.Proof.Gen.Pre_finite_inputs
import proofs.«156843_j59425167507716_2_alg».proof.Proof.Arrays
import proofs.«156843_j59425167507716_2_alg».proof.Proof.RefCell
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the seven arguments, the kernel's two output arrays and the reference's two results are
    the same arrays: the new cell state and the new hidden state of the arguments. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v34_eq, Cert.ReferenceIdeal.RefValue.cell_eq, a0, a1, a2, a3, a4, a5, a6]
  · obtain ⟨a0, a1, a2, a3, a4, a5, a6⟩ := hagree c
    rw [Cert.ReferenceIdeal.Read.val_main_v36_eq, Cert.ReferenceIdeal.RefValue.hidden_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
